-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2 : Shape := ⟨2, ![8192, 2]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192 .f32) (main_arg1 : FVec F S8192x2 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192 : Shape := ⟨1, ![8192]⟩
abbrev S8192x2 : Shape := ⟨2, ![8192, 2]⟩
abbrev S8192x1 : Shape := ⟨2, ![8192, 1]⟩
abbrev S_ : Shape := ⟨0, ![]⟩
abbrev S1x8192 : Shape := ⟨2, ![1, 8192]⟩
abbrev S1x1024 : Shape := ⟨2, ![1, 1024]⟩
abbrev S512x1 : Shape := ⟨2, ![512, 1]⟩
abbrev S512x1024 : Shape := ⟨2, ![512, 1024]⟩
abbrev S1024 : Shape := ⟨1, ![1024]⟩

abbrev nBuf : Space → Nat
  | .hbm => 32
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S1x8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S8192x1, .f32⟩
  | .local _ .vmem, ⟨1, _⟩ => ⟨S8192x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_cst_0 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_cst_1 : Ref sig .tc := ⟨.hbm, 24, rfl⟩
abbrev main_call0_v20 : Ref sig .tc := ⟨.hbm, 25, rfl⟩
abbrev main_call0_v21 : Ref sig .tc := ⟨.hbm, 26, rfl⟩
abbrev main_call0_cst_2 : Ref sig .tc := ⟨.hbm, 27, rfl⟩
abbrev main_call0_v22 : Ref sig .tc := ⟨.hbm, 28, rfl⟩
abbrev main_call0_v23 : Ref sig .tc := ⟨.hbm, 29, rfl⟩
abbrev main_call0_cst_3 : Ref sig .tc := ⟨.hbm, 30, rfl⟩
abbrev main_v0 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v6 : BitVec 32 := Scalar.muli arg5 c512_i32
  v6
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v6 : BitVec 32 := Scalar.muli arg5 c512_i32
  let v7 : BitVec 32 := v6
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  reducesTo_S8192_S_d0 : S8192.ReducesTo [0] S_
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  shapeCasts_S1x8192_S8192 : S1x8192.ShapeCasts S8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S512x1 : 0 < S512x1.numel
  shapeCasts_S512x1_S512x1 : S512x1.ShapeCasts S512x1
  broadcasts_S1x1024_S512x1024 : S1x1024.Broadcasts S512x1024
  broadcasts_S512x1_S512x1024 : S512x1.Broadcasts S512x1024
  reduces_S512x1024_S1024 : S512x1024.Reduces [0] S1024
  shapeCasts_S1024_S1x1024 : S1024.ShapeCasts S1x1024
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .f32 = 32 ∨ (Rect.block (s := S8192x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)

variable [Facts₀]

abbrev win0_0 : Pipeline.Window sig grid0 :=
  Pipeline.Window.ofSpec (Memref.whole main_call0_v8) S8192x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192 : Shape := ⟨1, ![8192]⟩
abbrev S8192x2 : Shape := ⟨2, ![8192, 2]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192_S_d0 : S8192.ReducesTo [0] S_
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d0 : S8192x8192.ReducesTo [0] S8192

variable [Facts₀]

class Facts : Prop extends Facts₀ where

variable [Facts]
-- ==== Proof.Spec.lean ====
/-
  The Cox partial-likelihood loss, stated once for both programs.

  For event times `t` and weights `ex` (both of length 8192) the risk-set sum at `j` adds the weight of every
  row `r` whose time is at least `t j`:

      riskVec t ex j = Σ_{r < 8192} (if t j ≤ t r then ex r else 0).

  The loss is then a fixed chain of host operations of the predictions `r`, the event indicators `e`, the largest
  prediction `mx` and the risk-set sums `rss`:

      lossTail r e mx rss = ( −Σ_j (r j − (log (rss j + ε) + mx)) · e j / Σ_j e j ) / 8192.

  Both programs compute the loss by exactly this chain; they differ only in how they obtain `rss`.
-/
import Idealize.ShloMosaic.PureOps.Ideal
import Idealize.ShloMosaic.Lib.ValueIdx

noncomputable section

namespace Cert.Risk

open Idealize.ShloMosaic Idealize.ShloMosaic.ValueIdx

/-- A vector of 8192 entries, and a scalar. -/
abbrev Vn : Shape := ⟨1, ![8192]⟩
abbrev Sc : Shape := ⟨0, ![]⟩

/-- The masked weight of a row for a target: the row's weight when the target's time is at most the row's
    time, zero otherwise. -/
abbrev masked (tj ti w : EReal) : EReal :=
  Scalar.select (FloatOps.cmpf (F := Ideal) (φ := .f32) .ole tj ti) w (Ideal.ofBits .f32 0x00000000#32)

/-- The risk-set sums. -/
def riskVec (t ex : Vn.Idx → EReal) : Vn.Idx → EReal :=
  fun j => ∑ r : Fin 8192, masked (t j) (t (ix1 r)) (ex (ix1 r))

/-- The loss from the predictions, the event indicators, the largest prediction and the risk-set sums. -/
def lossTail (hb : Sc.BroadcastsInDim Vn (![] : Fin 0 → Fin Vn.rank)) (hr : Vn.ReducesTo [0] Sc) (h0 : 0 < Sc.numel)
    (r e : FVec Ideal Vn .f32) (mx : FVec Ideal Sc .f32) (rss : FVec Ideal Vn .f32) : FVec Ideal Sc .f32 :=
  Host.divf (F := Ideal)
    (Host.divf (F := Ideal)
      (Host.negf (F := Ideal)
        (Host.reduceAdd (F := Ideal)
          (mulf (subf r (addf (Host.log (F := Ideal) (addf rss (broadcastInDim Vn ![] hb (constant (F := Ideal) Sc .f32 0x322BCC77#32))))
            (broadcastInDim Vn ![] hb mx))) e)
          (constant (F := Ideal) Sc .f32 0x00000000#32) hr h0))
      (Host.reduceAdd (F := Ideal) e (constant (F := Ideal) Sc .f32 0x00000000#32) hr h0))
    (constant (F := Ideal) Sc .f32 0x46000000#32)

end Cert.Risk

end
-- ==== Proof.Payload.lean ====
/-
  One trip of the in-kernel sweep, read at an index on the extended reals.

  A trip takes the carried row `acc` (1 × 1024), the target times `tj` (1 × 1024) and a chunk of 512 rows of
  the two resident columns: the weights `w` (512 × 1) and the times `ti` (512 × 1).  It forms the 512 × 1024
  mask `tj(0, l) ≤ ti(a, 0)`, keeps `w(a, 0)` where the mask holds and zero elsewhere, sums over the 512 rows
  and adds the result to the carried row.  So at lane `l`

      new(0, l) = acc(0, l) + Σ_{a < 512} (if tj(0, l) ≤ ti(a, 0) then w(a, 0) else 0).
-/
import proofs.«138329_j64639257805423_2_alg».proof.Proof.Gen.KernelIdeal.Skeleton
import proofs.«138329_j64639257805423_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Risk

open Idealize.ShloMosaic Idealize.ShloMosaic.ValueIdx Cert.KernelIdeal Cert.KernelIdeal.Gen Cert.Risk

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row the sweep starts from is zero. -/
theorem pay1_apply (j : S1x1024.Idx) : k0_pay1 (F := Ideal) j = 0 := by
  show Ideal.ofBits .f32 0x00000000#32 = 0
  exact Ideal.ofBits_zero_f32

/-- The sum over the 512 rows of a 512 × 1024 array, at lane `l`. -/
theorem laneSum_apply (src : FVec Ideal S512x1024 .f32) (hφ : FKind.Formats .f32)
    (hacc : (0x00000000#32 : BitVec 32) = 0x00000000#32) (l : Fin 1024) :
    multiReduction .add [0] S1024 src 0x00000000#32 Facts₀.reduces_S512x1024_S1024 hφ hacc (ix1 l)
      = ∑ a : Fin 512, src (ix2 a l) :=
  (Ideal.multiReduction_add_single src 0x00000000#32 Facts₀.reduces_S512x1024_S1024 hφ hacc (ix1 l)).trans
    (Finset.sum_congr rfl fun a _ => congrArg src (funext fun d => Fin.ext (by
      match d with
      | ⟨0, _⟩ => rfl
      | ⟨1, _⟩ => rfl)))

/-- One trip at lane `l`: the carried value plus the chunk's masked weights summed over its 512 rows. -/
theorem pay2_apply (tj : Vec Ideal S1x1024 .f32) (acc : FVec Ideal S1x1024 .f32) (w ti : Vec Ideal S512x1 .f32)
    (u : Fin 1) (l : Fin 1024) :
    k0_pay2 (F := Ideal) tj acc w ti (ix2 u l)
      = acc (ix2 u l) + ∑ a : Fin 512, masked (tj (ix2 (0 : Fin 1) l)) (ti (ix2 a (0 : Fin 1))) (w (ix2 a (0 : Fin 1))) := by
  unfold k0_pay2
  simp only [shapeCast_self]
  rw [addf_apply, shapeCast_a_1a_apply]
  refine congrArg (_ + ·) ((laneSum_apply _ _ _ l).trans (Finset.sum_congr rfl fun a _ => ?_))
  rw [select_apply, cmpf_apply, broadcastTo_1b_ab_apply, broadcastTo_a1_ab_apply, broadcastTo_a1_ab_apply, broadcast_apply]
  rfl

end Cert.KernelIdeal.Risk

end
-- ==== Proof.LibBlockSum.lean ====
/-
  A sum over n·b consecutive indices taken block by block.

  If a sequence starts at zero and its k-th step adds the sum of the k-th block of b consecutive terms,
  then after n steps it holds the sum of all n·b terms.  Stated over any commutative additive monoid
  (the extended reals with their addition are one), so no finiteness is needed.
-/
import Mathlib.Algebra.BigOperators.Fin
import Mathlib.Algebra.BigOperators.Group.Finset.Basic

namespace Cert.Lib

/-- The a-th term of block k lies among the first n·b terms. -/
theorem blk_lt {n b k a : ℕ} (hk : k < n) (ha : a < b) : b * k + a < n * b :=
  calc b * k + a < b * k + b := by omega
    _ = b * (k + 1) := (Nat.mul_succ b k).symm
    _ ≤ b * n := Nat.mul_le_mul_left b hk
    _ = n * b := Nat.mul_comm b n

/-- Block-by-block accumulation is the whole sum: `s 0 = 0` and `s (k+1) = s k + Σ_{a<b} f (b·k + a)` for `k < n`
    give `s n = Σ_{i<N} f i` when `N = n·b`. -/
theorem sum_by_blocks {M : Type*} [AddCommMonoid M] {n b N : ℕ} (hN : n * b = N) (f : Fin N → M) (s : ℕ → M)
    (h0 : s 0 = 0)
    (hs : ∀ k (hk : k < n), s (k + 1) = s k + ∑ a : Fin b, f ⟨b * k + a, hN ▸ blk_lt hk a.isLt⟩) :
    s n = ∑ i : Fin N, f i := by
  subst hN
  -- the terms as a function on the naturals, zero past the end
  let g : ℕ → M := fun i => if h : i < n * b then f ⟨i, h⟩ else 0
  have key : ∀ k, k ≤ n → s k = ∑ i ∈ Finset.range (b * k), g i := by
    intro k
    induction k with
    | zero => intro _; simpa using h0
    | succ k ih =>
      intro hk
      have hk' : k < n := hk
      rw [hs k hk', ih (Nat.le_of_lt hk'), Nat.mul_succ, Finset.sum_range_add, Finset.sum_range (fun a => g (b * k + a))]
      refine congrArg (_ + ·) (Finset.sum_congr rfl fun a _ => ?_)
      show f ⟨b * k + a, _⟩ = g (b * k + a)
      simp only [g]
      rw [dif_pos (blk_lt hk' a.isLt)]
  rw [key n le_rfl, Nat.mul_comm b n, Finset.sum_range]
  refine Finset.sum_congr rfl fun i _ => ?_
  simp only [g]
  rw [dif_pos i.isLt]

end Cert.Lib
-- ==== Proof.LoopValue.lean ====
/-
  What the kernel body leaves in its output block, as a value.

  The body loads the block's 1024 target times, starts a row of zeros, and sweeps the two resident columns in
  16 chunks of 512 rows; each trip adds, lane by lane, the chunk's masked weights (Payload.lean).  After the last
  trip the row is stored whole.  So the block at lane `l` is the sum over ALL 8192 rows of the masked weights:
  the 16 partial sums of 512 consecutive rows are one sum of 8192 terms, because addition of extended reals is
  commutative and associative.
-/
import proofs.«138329_j64639257805423_2_alg».proof.Proof.Gen.KernelIdeal.Frame
import proofs.«138329_j64639257805423_2_alg».proof.Proof.Payload
import proofs.«138329_j64639257805423_2_alg».proof.Proof.LibBlockSum

set_option maxRecDepth 16384

noncomputable section

namespace Cert.KernelIdeal.Risk

open Idealize.ShloMosaic Idealize.ShloMosaic.TcCoe Idealize.ShloMosaic.Tactic Idealize.ShloMosaic.ValueIdx
open Idealize.SL.Sem Cert.KernelIdeal Cert.KernelIdeal.Gen Cert.Risk

variable {F : FTy → Type} [FloatOps F]

/-- The sweep has 16 trips. -/
theorem trips_eq : k0_t1_loop.trips = 16 := by decide +kernel

theorem hz : (![0, 0] : Fin 2 → Nat) = fun _ => 0 := funext fun a => by fin_cases a <;> rfl

/-- Chunk `k` of a resident column: its rows `512·k … 512·k + 511`. -/
def chunk (x : Vec F S8192x1 .f32) (k : Fin k0_t1_loop.trips) : Vec F S512x1 .f32 :=
  View.ld x (Rect.unit (k0_off1 k) S512x1.size (Gen.k0_off1_inb k))

/-- Row `a` of chunk `k` is row `512·k + a` of the column. -/
theorem chunk_apply (x : Vec F S8192x1 .f32) (k : Fin k0_t1_loop.trips) (a : Fin 512) :
    chunk x k (ix2 a (0 : Fin 1))
      = x (ix2 (⟨512 * k.val + a.val, by have := Nat.lt_of_lt_of_le k.isLt (Nat.le_of_eq trips_eq); omega⟩ : Fin 8192) (0 : Fin 1)) := by
  unfold chunk
  show x _ = x _
  refine congrArg x (funext fun d => Fin.ext ?_)
  match d with
  | ⟨0, _⟩ =>
    show k0_off1 k 0 + 1 * a.val = 512 * k.val + a.val
    rw [k0_off1_eq]; show 512 * k.val + 1 * a.val = _; omega
  | ⟨1, _⟩ =>
    show k0_off1 k 1 + 1 * 0 = 0
    rw [k0_off1_eq]; rfl

/-- One trip of the sweep on whole resident columns `x0`, `x1`: its yield is the trip's arithmetic of the carried
    row, the target times and chunk `k` of each column. -/
theorem tripR_eq (c : Dev nD) (i : grid0.Coords) (arg1 : Memref sig .tc .vmem S8192x1 .f32) (harg1 : arg1.IsWhole) (arg2 : Memref sig .tc .vmem S8192x1 .f32) (harg2 : arg2.IsWhole) (arg3 : Memref sig .tc .vmem S1x1024 .f32) (harg3 : arg3.IsWhole) (arg4 : Memref sig .tc .vmem S1x1024 .f32) (harg4 : arg4.IsWhole)
    (x0 x1 : Vec F S8192x1 .f32) (v0 : Vec F S1x1024 .f32) (k : Fin k0_t1_loop.trips) (acc : FVec F S1x1024 .f32) :
    tripR_k0_t1 Variants.none c none i arg1 harg1 arg2 harg2 arg3 harg3 arg4 harg4 v0 (harg1.unread x0) (harg2.unread x1) k acc
      = k0_pay2 v0 acc (chunk x0 k) (chunk x1 k) := by
  unfold tripR_k0_t1 trip_k0_t1
  dsimp only
  sl_unfold_words
  simp only [View.readAt_eq_ld, harg1.read_unread, harg2.read_unread]
  rfl

/-- The carried row before trip `n`. -/
def sweep (x0 x1 : Vec F S8192x1 .f32) (x2 : Vec F S1x1024 .f32) : ℕ → FVec F S1x1024 .f32
  | 0 => k0_pay1
  | n + 1 =>
    if h : n < k0_t1_loop.trips then k0_pay2 x2 (sweep x0 x1 x2 n) (chunk x0 ⟨n, h⟩) (chunk x1 ⟨n, h⟩)
    else sweep x0 x1 x2 n

/-- The run's carried row before trip `n` is the sweep's. -/
theorem st_eq_sweep (c : Dev nD) (i : grid0.Coords) (arg1 : Memref sig .tc .vmem S8192x1 .f32) (harg1 : arg1.IsWhole) (arg2 : Memref sig .tc .vmem S8192x1 .f32) (harg2 : arg2.IsWhole) (arg3 : Memref sig .tc .vmem S1x1024 .f32) (harg3 : arg3.IsWhole) (arg4 : Memref sig .tc .vmem S1x1024 .f32) (harg4 : arg4.IsWhole)
    (x0 x1 : Vec F S8192x1 .f32) (x2 : Vec F S1x1024 .f32) :
    ∀ n, n ≤ k0_t1_loop.trips →
      st_k0_t1 Variants.none c none i arg1 harg1 arg2 harg2 arg3 harg3 arg4 harg4 x2 (harg1.unread x0) (harg2.unread x1) k0_pay1 n
        = sweep x0 x1 x2 n
  | 0, _ => rfl
  | n + 1, hn => by
    have h : n < k0_t1_loop.trips := hn
    have e := st_k0_t1_succ (F := F) Variants.none c none i arg1 harg1 arg2 harg2 arg3 harg3 arg4 harg4 x2 (harg1.unread x0) (harg2.unread x1) k0_pay1 ⟨n, h⟩
    refine e.trans ?_
    rw [tripR_eq, st_eq_sweep c i arg1 harg1 arg2 harg2 arg3 harg3 arg4 harg4 x0 x1 x2 n (Nat.le_of_lt h)]
    show _ = dite _ _ _
    rw [dif_pos h]

/-- What the body leaves in its output block, on any whole staging memrefs holding `x0`, `x1`, `x2`: the carried row
    after the last trip. -/
theorem out_eq (c : Dev nD) (i : grid0.Coords) (arg1 : Memref sig .tc .vmem S8192x1 .f32) (harg1 : arg1.IsWhole) (arg2 : Memref sig .tc .vmem S8192x1 .f32) (harg2 : arg2.IsWhole) (arg3 : Memref sig .tc .vmem S1x1024 .f32) (harg3 : arg3.IsWhole) (arg4 : Memref sig .tc .vmem S1x1024 .f32) (harg4 : arg4.IsWhole)
    (x0 x1 : Vec F S8192x1 .f32) (x2 : Vec F S1x1024 .f32) :
    out0_A_3 c i arg1 harg1 arg2 harg2 arg3 harg3 arg4 harg4 x0 x1 x2 = sweep x0 x1 x2 k0_t1_loop.trips := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  simp only [View.readAt_eq_ld, harg3.read_unread, View.ld_unit_zero (S := S1x1024) hz]
  exact st_eq_sweep c i arg1 harg1 arg2 harg2 arg3 harg3 arg4 harg4 x0 x1 x2 k0_t1_loop.trips le_rfl

/-- On the extended reals, the row after the last trip at lane `l` is the sum over all 8192 rows of the masked
    weights: target time `x2(0, l)`, row times `x1`, row weights `x0`. -/
theorem sweep_apply (x0 x1 : Vec Ideal S8192x1 .f32) (x2 : Vec Ideal S1x1024 .f32) (u : Fin 1) (l : Fin 1024) :
    sweep x0 x1 x2 k0_t1_loop.trips (ix2 u l)
      = ∑ r : Fin 8192, masked (x2 (ix2 (0 : Fin 1) l)) (x1 (ix2 r (0 : Fin 1))) (x0 (ix2 r (0 : Fin 1))) := by
  rw [trips_eq]
  refine Cert.Lib.sum_by_blocks (n := 16) (b := 512) (N := 8192) rfl
    (fun r : Fin 8192 => masked (x2 (ix2 (0 : Fin 1) l)) (x1 (ix2 r (0 : Fin 1))) (x0 (ix2 r (0 : Fin 1))))
    (fun n => sweep x0 x1 x2 n (ix2 u l)) (pay1_apply _) (fun k hk => ?_)
  have h : k < k0_t1_loop.trips := by rw [trips_eq]; exact hk
  show (dite (k < k0_t1_loop.trips) _ _ : FVec Ideal S1x1024 .f32) (ix2 u l) = _
  rw [dif_pos h, pay2_apply]
  refine congrArg (_ + ·) (Finset.sum_congr rfl fun a _ => ?_)
  rw [chunk_apply, chunk_apply]

end Cert.KernelIdeal.Risk

end
-- ==== Proof.KernelArray.lean ====
/-
  The kernel's output array after the whole grid.

  The grid has 8 points; point `t` owns lanes `1024·t … 1024·t + 1023` of the 1 × 8192 output.  The two resident
  columns (weights and row times, 8192 × 1 each) are the same whole arrays at every point; the target times are
  block `t` of the 1 × 8192 row of times.  By LoopValue.lean the block written at point `t` is, lane by lane, the sum
  over all rows of the masked weights, so every point writes its block of ONE array

      riskArr(u, j) = Σ_{r < 8192} (if trow(u, j) ≤ tcol(r, 0) then wcol(r, 0) else 0),

  and the 8 blocks tile the array: that is the array the region leaves.
-/
import proofs.«138329_j64639257805423_2_alg».proof.Proof.LoopValue

set_option maxRecDepth 16384

noncomputable section

namespace Cert.KernelIdeal.Risk

open Idealize.ShloMosaic Idealize.ShloMosaic.TcCoe Idealize.ShloMosaic.ValueIdx
open Idealize.SL.Sem Cert.KernelIdeal Cert.KernelIdeal.Gen Cert.Risk
open Idealize.ShloMosaic.Pipeline (Dat)

variable (m : (ℓ : Loc nD τ sig) → Buf (Elt Ideal) ℓ)

/-- The risk-set sums as one array of the weight column, the time column and the time row. -/
def riskArr (wcol tcol : S8192x1.Idx → EReal) (trow : S1x8192.Idx → EReal) : S1x8192.Idx → EReal :=
  fun i => ∑ r : Fin 8192, masked (trow i) (tcol (ix2 r (0 : Fin 1))) (wcol (ix2 r (0 : Fin 1)))

/-- The block indices over the grid: the two columns are fetched whole; the time row and the output move
    together, one block of 1024 lanes per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point `t` writes back is block `t` of `riskArr` of the three arrays as the region finds them. -/
theorem flushed_eq (c : Dev nD) (t : Fin cfg0.N) :
    (dats m 0 c).flushed 3 t
      = ((cfg0.win 3).blk t).view.read (Elt Ideal)
          (riskArr (V m c main_call0_v8) (V m c main_call0_v9) (V m c main_call0_v10)) := by
  show (cfg0.win 3).cut (grid0.coords t) ((dats m 0 c).after 3 t) = _
  rw [after0_3]
  unfold outsAt0
  rw [out_eq]
  obtain ⟨a0, a1, b0, b1, c0, c1, d0, d1⟩ := idx_facts t
  refine funext fun (j : S1x1024.Idx) => ?_
  obtain ⟨u, l, rfl⟩ : ∃ (u : Fin 1) (l : Fin 1024), j = ix2 u l := ⟨j 0, j 1, eq_ix2 j⟩
  show sweep (iblk m c 0 t) (iblk m c 1 t) (iblk m c 2 t) k0_t1_loop.trips (ix2 u l)
    = riskArr (V m c main_call0_v8) (V m c main_call0_v9) (V m c main_call0_v10) (((cfg0.win 3).blk t).view.emb (ix2 u l))
  refine (sweep_apply (iblk m c 0 t) (iblk m c 1 t) (iblk m c 2 t) u l).trans ?_
  unfold riskArr
  refine Finset.sum_congr rfl fun r _ => ?_
  have hu : u.val = 0 := by omega
  have h0 : iblk m c 0 t (ix2 r (0 : Fin 1)) = V m c main_call0_v8 (ix2 r (0 : Fin 1)) := by
    show V m c main_call0_v8 (((cfg0.win 0).blk t).view.emb (ix2 r (0 : Fin 1))) = _
    refine congrArg _ (funext fun a => Fin.ext ?_)
    match a with
    | ⟨0, _⟩ => show win0_0.index t (0 : Fin 2) * 8192 + 1 * r.val = r.val; omega
    | ⟨1, _⟩ => show win0_0.index t (1 : Fin 2) * 1 + 1 * 0 = 0; omega
  have h1 : iblk m c 1 t (ix2 r (0 : Fin 1)) = V m c main_call0_v9 (ix2 r (0 : Fin 1)) := by
    show V m c main_call0_v9 (((cfg0.win 1).blk t).view.emb (ix2 r (0 : Fin 1))) = _
    refine congrArg _ (funext fun a => Fin.ext ?_)
    match a with
    | ⟨0, _⟩ => show win0_1.index t (0 : Fin 2) * 8192 + 1 * r.val = r.val; omega
    | ⟨1, _⟩ => show win0_1.index t (1 : Fin 2) * 1 + 1 * 0 = 0; omega
  have h2 : iblk m c 2 t (ix2 (0 : Fin 1) l) = V m c main_call0_v10 (((cfg0.win 3).blk t).view.emb (ix2 u l)) := by
    show V m c main_call0_v10 (((cfg0.win 2).blk t).view.emb (ix2 (0 : Fin 1) l)) = _
    refine congrArg _ (funext fun a => Fin.ext ?_)
    match a with
    | ⟨0, _⟩ => show win0_2.index t (0 : Fin 2) * 1 + 1 * 0 = win0_3.index t (0 : Fin 2) * 1 + 1 * u.val; omega
    | ⟨1, _⟩ => show win0_2.index t (1 : Fin 2) * 1024 + 1 * l.val = win0_3.index t (1 : Fin 2) * 1024 + 1 * l.val; omega
  rw [h0, h1, h2]

/-- An index of the output array is in point `t`'s block iff each coordinate is in the block's range. -/
theorem mem_blk (t : Fin cfg0.N) (i : S1x8192.Idx) :
    i ∈ ((cfg0.win 3).blk t).view.set ↔ ∀ a : Fin 2, win0_3.index t a * S1x1024.size a ≤ (i a).val
      ∧ (i a).val < win0_3.index t a * S1x1024.size a + S1x1024.size a := by
  show i ∈ ((View.whole main_call0_v11).slice (win0_3.rect t)).set ↔ _
  rw [View.set_slice_whole, Rect.mem_set_unit]
  exact Iff.rfl

/-- Lane `j` of the output lies in the block of point `j / 1024`, which is written back. -/
theorem cover (i : S1x8192.Idx) :
    ∃ t : Fin cfg0.N, (cfg0.win 3).flush t = true ∧ i ∈ ((cfg0.win 3).blk t).view.set := by
  have hi0 : (i 0).val < 1 := (i 0).isLt
  have hi1 : (i 1).val < 8192 := (i 1).isLt
  have hN : cfg0.N = 8 := N_0
  have ht : (i 1).val / 1024 < cfg0.N := by rw [hN]; omega
  obtain ⟨-, -, -, -, -, -, d0, d1⟩ := idx_facts ⟨(i 1).val / 1024, ht⟩
  refine ⟨⟨(i 1).val / 1024, ht⟩, flush0_3 _, ?_⟩
  rw [mem_blk]
  intro a
  match a with
  | ⟨0, _⟩ =>
    show win0_3.index ⟨(i 1).val / 1024, ht⟩ (0 : Fin 2) * 1 ≤ (i 0).val
      ∧ (i 0).val < win0_3.index ⟨(i 1).val / 1024, ht⟩ (0 : Fin 2) * 1 + 1
    rw [d0]; omega
  | ⟨1, _⟩ =>
    show win0_3.index ⟨(i 1).val / 1024, ht⟩ (1 : Fin 2) * 1024 ≤ (i 1).val
      ∧ (i 1).val < win0_3.index ⟨(i 1).val / 1024, ht⟩ (1 : Fin 2) * 1024 + 1024
    rw [d1]; show (i 1).val / 1024 * 1024 ≤ (i 1).val ∧ (i 1).val < (i 1).val / 1024 * 1024 + 1024; omega

/-- The output array after the region. -/
theorem final (c : Dev nD) :
    (dats m 0 c).arrAt 3 cfg0.N = riskArr (V m c main_call0_v8) (V m c main_call0_v9) (V m c main_call0_v10) :=
  (dats m 0 c).arrAt_eq_of_cover 3 _ (fun t _ => flushed_eq m c t) (cover)

end Cert.KernelIdeal.Risk

end
-- ==== Proof.KernelRun.lean ====
/-
  The kernel program's run, read as a value.

  Before the region the host slices the two columns of `y_true` into the event times `t` and the event
  indicators `e`, takes the largest prediction `mx = max x` and the weights `ex = exp (x − mx)`, and lays `ex`
  and `t` out as 8192 × 1 columns and `t` also as a 1 × 8192 row.  The region leaves the 1 × 8192 array of
  KernelArray.lean, whose entry `(0, j)` is the risk-set sum `riskVec t ex j`.  After the region the host
  flattens that array and applies the loss chain `lossTail`.
-/
import proofs.«138329_j64639257805423_2_alg».proof.Proof.KernelArray
import Idealize.ShloMosaic.Lib.StableHlo.Run

set_option maxRecDepth 16384

noncomputable section

namespace Cert.KernelIdeal.Risk

open Idealize.ShloMosaic Idealize.ShloMosaic.TcCoe Idealize.ShloMosaic.ValueIdx Idealize.ShloMosaic.StableHlo
open Idealize.SL.Sem Cert.KernelIdeal Cert.KernelIdeal.Gen Cert.Risk

/-- A vector cast to a column reads, at `(r, 0)`, the vector at `r`. -/
theorem cast_vector_column {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- The event times: column 0 of `y_true`. -/
def times (y : FVec Ideal S8192x2 .f32) : FVec Ideal S8192 .f32 :=
  shapeCast S8192 (extractStridedSlice S8192x1 ![0, 0] y Facts₀.slices_S8192x2_S8192x1_0_0) Facts₀.shapeCasts_S8192x1_S8192

/-- The event indicators: column 1 of `y_true`. -/
def events (y : FVec Ideal S8192x2 .f32) : FVec Ideal S8192 .f32 :=
  shapeCast S8192 (extractStridedSlice S8192x1 ![0, 1] y Facts₀.slices_S8192x2_S8192x1_0_1) Facts₀.shapeCasts_S8192x1_S8192

/-- The largest prediction. -/
def top (x : FVec Ideal S8192 .f32) : FVec Ideal S_ .f32 :=
  Host.reduce (FloatOps.maximumf (F := Ideal) (φ := .f32)) x (constant (F := Ideal) S_ .f32 0xFF800000#32) Facts₀.reducesTo_S8192_S_d0 Facts₀.h_S_

/-- The weights `exp (x − max x)`. -/
def weights (x : FVec Ideal S8192 .f32) : FVec Ideal S8192 .f32 :=
  Host.exp (F := Ideal) (subf x (broadcastInDim S8192 ![] Facts₀.bcast_S_S8192 (top x)))

variable (m : (ℓ : Loc nD τ sig) → Buf (Elt Ideal) ℓ) (ρ : Dev nD → PrngReg)

/-! ## The arrays the region finds -/

theorem V_events (c : Dev nD) :
    (V m c main_call0_v3 : S8192.Idx → EReal) = events (m ((c : Thread nD τ).loc main_arg1)) := by
  show StableHlo.after hostOps0 (fun b => m (c, b)) (Proc.devRef .tc main_call0_v3) = _
  after_results
  rfl

theorem V_top (c : Dev nD) :
    (V m c main_call0_v4 : S_.Idx → EReal) = top (m ((c : Thread nD τ).loc main_arg0)) := by
  show StableHlo.after hostOps0 (fun b => m (c, b)) (Proc.devRef .tc main_call0_v4) = _
  after_results
  unfold top
  simp only [TRef.toBuf, TRef.ofBuf, cast_eq]

theorem V_wcol (c : Dev nD) :
    (V m c main_call0_v8 : S8192x1.Idx → EReal)
      = shapeCast S8192x1 (weights (m ((c : Thread nD τ).loc main_arg0))) Facts₀.shapeCasts_S8192_S8192x1 := by
  show StableHlo.after hostOps0 (fun b => m (c, b)) (Proc.devRef .tc main_call0_v8) = _
  after_results
  unfold weights top
  simp only [TRef.toBuf, TRef.ofBuf, cast_eq]
  try rfl

theorem V_tcol (c : Dev nD) :
    (V m c main_call0_v9 : S8192x1.Idx → EReal)
      = shapeCast S8192x1 (times (m ((c : Thread nD τ).loc main_arg1))) Facts₀.shapeCasts_S8192_S8192x1 := by
  show StableHlo.after hostOps0 (fun b => m (c, b)) (Proc.devRef .tc main_call0_v9) = _
  after_results
  rfl

theorem V_trow (c : Dev nD) :
    (V m c main_call0_v10 : S1x8192.Idx → EReal)
      = shapeCast S1x8192 (times (m ((c : Thread nD τ).loc main_arg1))) Facts₀.shapeCasts_S8192_S1x8192 := by
  show StableHlo.after hostOps0 (fun b => m (c, b)) (Proc.devRef .tc main_call0_v10) = _
  after_results
  rfl

/-! ## The region's array, flattened, is the risk-set sums -/

/-- The array of KernelArray.lean over the column and row layouts of the weights `w` and the times `t`, flattened,
    is the risk-set sums of `t` and `w`. -/
theorem riskArr_flat (w t : S8192.Idx → EReal) :
    shapeCast S8192
        (riskArr (shapeCast S8192x1 w Facts₀.shapeCasts_S8192_S8192x1) (shapeCast S8192x1 t Facts₀.shapeCasts_S8192_S8192x1)
          (shapeCast S1x8192 t Facts₀.shapeCasts_S8192_S1x8192))
        Facts₀.shapeCasts_S1x8192_S8192
      = riskVec t w := by
  funext i
  obtain ⟨j, rfl⟩ : ∃ j : Fin 8192, i = ix1 j := ⟨i 0, eq_ix1 i⟩
  rw [shapeCast_1a_a_apply]
  unfold riskArr riskVec
  refine Finset.sum_congr rfl fun r _ => ?_
  rw [shapeCast_a_1a_apply, cast_vector_column, cast_vector_column]

theorem rss_eq (c : Dev nD) :
    shapeCast S8192 ((dats m 0 c).arrAt 3 cfg0.N) Facts₀.shapeCasts_S1x8192_S8192
      = riskVec (times (m ((c : Thread nD τ).loc main_arg1))) (weights (m ((c : Thread nD τ).loc main_arg0))) := by
  rw [final m c, V_trow, V_tcol, V_wcol]
  exact riskArr_flat _ _

/-! ## The result -/

set_option maxHeartbeats 2000000 in
/-- What the host operations after the region leave in the result buffer. -/
theorem tail_eq (c : Dev nD) :
    (Pipeline.afterTail₀ cfgs (dats m) 0 (V0 m) [hostOps1] c main_v0 : S_.Idx → EReal)
      = lossTail Facts₀.bcast_S_S8192 Facts₀.reducesTo_S8192_S_d0 Facts₀.h_S_ (m ((c : Thread nD τ).loc main_arg0))
          (events (m ((c : Thread nD τ).loc main_arg1))) (top (m ((c : Thread nD τ).loc main_arg0)))
          (riskVec (times (m ((c : Thread nD τ).loc main_arg1))) (weights (m ((c : Thread nD τ).loc main_arg0)))) := by
  rw [← rss_eq m c, ← V_events m c, ← V_top m c]
  have hx : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have he : Pipeline.withArrays (cfgs 0).spec c (V0 m c) (fun w => (dats m 0 c).arrAt w (cfgs 0).N) (Proc.devRef .tc main_call0_v3)
      = V m c main_call0_v3 :=
    Pipeline.withArrays_of_ne _ c (V0 m c) _ main_call0_v3 (by exact (by decide : ∀ w, Pipeline.arrRef spec0 w ≠ main_call0_v3))
  have ht : Pipeline.withArrays (cfgs 0).spec c (V0 m c) (fun w => (dats m 0 c).arrAt w (cfgs 0).N) (Proc.devRef .tc main_call0_v4)
      = V m c main_call0_v4 :=
    Pipeline.withArrays_of_ne _ c (V0 m c) _ main_call0_v4 (by exact (by decide : ∀ w, Pipeline.arrRef spec0 w ≠ main_call0_v4))
  have ha : Pipeline.withArrays (cfgs 0).spec c (V0 m c) (fun w => (dats m 0 c).arrAt w (cfgs 0).N) (Proc.devRef .tc main_call0_v11)
      = (dats m 0 c).arrAt 3 cfg0.N :=
    Pipeline.withArrays_arr spec0 launch0.win.arr_inj c (V0 m c) _ 3
  unfold Pipeline.afterTail₀
  show StableHlo.after hostOps1 _ (Proc.devRef .tc main_v0) = _
  after_results_simp
  rw [hx, he, ht, ha]
  unfold lossTail
  rfl

/-- The kernel program's run: the result is the loss chain of the risk-set sums; the arguments are unchanged. -/
theorem run : θ_run defs (onTc (τ := τ) (main (F := Ideal))) ⟨m, fun _ => 0, ρ⟩ fun r => ∀ c : Dev nD,
      r.2.mem ((c : Thread nD τ).loc main_v0)
        = lossTail Facts₀.bcast_S_S8192 Facts₀.reducesTo_S8192_S_d0 Facts₀.h_S_ (m ((c : Thread nD τ).loc main_arg0))
            (events (m ((c : Thread nD τ).loc main_arg1))) (top (m ((c : Thread nD τ).loc main_arg0)))
            (riskVec (times (m ((c : Thread nD τ).loc main_arg1))) (weights (m ((c : Thread nD τ).loc main_arg0))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Risk

end
-- ==== Proof.Reference.lean ====
/-
  The reference program's loss, read against the specification.

  The reference materialises the 8192 × 8192 mask `t j ≤ t r` (row `r`, column `j`), keeps the weight
  `ex r = exp (x r − max x)` where the mask holds and zero elsewhere, and sums over the rows: its risk-set sums are
  `riskVec t ex`.  The rest of its operations are the chain `lossTail`.
-/
import proofs.«138329_j64639257805423_2_alg».proof.Proof.Gen.ReferenceIdeal.Read
import proofs.«138329_j64639257805423_2_alg».proof.Proof.Spec

noncomputable section

namespace Cert.ReferenceIdeal.Risk

open Idealize.ShloMosaic Idealize.ShloMosaic.ValueIdx Cert.ReferenceIdeal Cert.ReferenceIdeal.Read Cert.Risk

/-- The reference's result is the loss chain applied to its own risk-set sums. -/
theorem loss_eq (x0 : (⟨S8192, .f32⟩ : BufTy).Contents (Elt Ideal)) (x1 : (⟨S8192x2, .f32⟩ : BufTy).Contents (Elt Ideal)) :
    val_main_v27 (F := Ideal) x0 x1
      = lossTail Facts₀.bcast_S_S8192 Facts₀.reducesTo_S8192_S_d0 Facts₀.h_S_ x0 (val_main_v3 (F := Ideal) x1)
          (val_main_v9 (F := Ideal) x0) (val_main_v15 (F := Ideal) x0 x1) := rfl

/-- The reference's risk-set sums: at `j`, the sum over the rows `r` of the weight `ex r` masked by `t j ≤ t r`. -/
theorem rss_eq (x0 : (⟨S8192, .f32⟩ : BufTy).Contents (Elt Ideal)) (x1 : (⟨S8192x2, .f32⟩ : BufTy).Contents (Elt Ideal)) :
    val_main_v15 (F := Ideal) x0 x1 = riskVec (val_main_v1 (F := Ideal) x1) (val_main_v12 (F := Ideal) x0) := by
  funext i
  obtain ⟨j, rfl⟩ : ∃ j : Fin 8192, i = ix1 j := ⟨i 0, eq_ix1 i⟩
  rw [val_main_v15_apply, val_main_cst_1_apply]
  unfold riskVec
  show Ideal.ofBits .f32 0x00000000#32 + _ = _
  rw [Ideal.ofBits_zero_f32, zero_add]
  refine Finset.sum_congr rfl fun k _ => ?_
  have e1 : idx_main_v4 (idx_main_v6 (idx_main_v15 (ix1 j) k)) = ix1 j :=
    funext fun a => Fin.ext (by match a with | ⟨0, _⟩ => rfl)
  have e2 : idx_main_v5 (idx_main_v7 (idx_main_v15 (ix1 j) k)) = ix1 k :=
    funext fun a => Fin.ext (by match a with | ⟨0, _⟩ => rfl)
  have e3 : idx_main_v13 (idx_main_call0_v0 (idx_main_v15 (ix1 j) k)) = ix1 k :=
    funext fun a => Fin.ext (by match a with | ⟨0, _⟩ => rfl)
  rw [val_main_v14_apply, val_main_v8_apply, val_main_v6_apply, val_main_v4_apply, val_main_v7_apply, val_main_v5_apply,
    val_main_call0_v0_apply, val_main_v13_apply, val_main_call0_v1_apply, val_main_cst_0_apply, e1, e2, e3]
  rfl

end Cert.ReferenceIdeal.Risk

end
-- ==== Proof.lean ====
/-
  The Cox partial-likelihood loss: a blocked risk-set kernel against its plain reference, equal on the extended reals.

  Both programs take predictions `x` (8192) and `y_true` (8192 × 2: event times `t`, event indicators `e`), form the
  weights `ex = exp (x − max x)`, the risk-set sums

      rss j = Σ_{r < 8192} (if t j ≤ t r then ex r else 0),

  and the loss `( −Σ_j (x j − (log (rss j + ε) + max x)) · e j / Σ_j e j ) / 8192` (Spec.lean).

  The reference builds the 8192 × 8192 masked array and sums its rows in one reduction (Reference.lean).  The
  kernel never builds it: a grid of 8 points each owns 1024 targets, and at each point a loop of 16 trips adds the
  masked weights of 512 rows at a time to a carried row (Payload.lean, LoopValue.lean); the 8 blocks tile the output
  (KernelArray.lean), and the host operations around the region are the same chain as the reference's
  (KernelRun.lean).  The two risk-set sums differ only in how one sum of 8192 terms is grouped — 16 partial sums of
  512 consecutive terms against one sum — and addition of extended reals is commutative and associative
  (LibBlockSum.lean), so no finiteness of the inputs is used.

  The three frames are the generated ones (the reference's is its generated run with the result dropped); the
  idealization rewrote nothing, so `preserves` is trivial.
-/
import proofs.«138329_j64639257805423_2_alg».proof.Defs
import proofs.«138329_j64639257805423_2_alg».proof.Proof.Gen.Kernel
import proofs.«138329_j64639257805423_2_alg».proof.Proof.Gen.Kernel.Skeleton
import proofs.«138329_j64639257805423_2_alg».proof.Proof.Gen.Kernel.Loops
import proofs.«138329_j64639257805423_2_alg».proof.Proof.Gen.Kernel.Launch
import proofs.«138329_j64639257805423_2_alg».proof.Proof.Gen.Kernel.Points
import proofs.«138329_j64639257805423_2_alg».proof.Proof.Gen.Kernel.Frame
import proofs.«138329_j64639257805423_2_alg».proof.Proof.Gen.KernelIdeal
import proofs.«138329_j64639257805423_2_alg».proof.Proof.Gen.KernelIdeal.Skeleton
import proofs.«138329_j64639257805423_2_alg».proof.Proof.Gen.KernelIdeal.Loops
import proofs.«138329_j64639257805423_2_alg».proof.Proof.Gen.KernelIdeal.Launch
import proofs.«138329_j64639257805423_2_alg».proof.Proof.Gen.KernelIdeal.Points
import proofs.«138329_j64639257805423_2_alg».proof.Proof.Gen.KernelIdeal.Frame
import proofs.«138329_j64639257805423_2_alg».proof.Proof.Gen.ReferenceIdeal
import proofs.«138329_j64639257805423_2_alg».proof.Proof.Gen.Pre_finite_inputs
import proofs.«138329_j64639257805423_2_alg».proof.Proof.Gen.ReferenceIdeal.Run
import proofs.«138329_j64639257805423_2_alg».proof.Proof.Gen.ReferenceIdeal.Read
import proofs.«138329_j64639257805423_2_alg».proof.Proof.KernelRun
import proofs.«138329_j64639257805423_2_alg».proof.Proof.Reference
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-! The host operations the two programs share before the risk-set sums are the same functions of the arguments. -/

theorem times_eq (y : FVec Ideal Cert.KernelIdeal.S8192x2 .f32) :
    Cert.KernelIdeal.Risk.times y = Cert.ReferenceIdeal.Read.val_main_v1 (F := Ideal) y := rfl

theorem events_eq (y : FVec Ideal Cert.KernelIdeal.S8192x2 .f32) :
    Cert.KernelIdeal.Risk.events y = Cert.ReferenceIdeal.Read.val_main_v3 (F := Ideal) y := rfl

theorem top_eq (x : FVec Ideal Cert.KernelIdeal.S8192 .f32) :
    Cert.KernelIdeal.Risk.top x = Cert.ReferenceIdeal.Read.val_main_v9 (F := Ideal) x := by
  unfold Cert.KernelIdeal.Risk.top Cert.ReferenceIdeal.Read.val_main_v9 Cert.ReferenceIdeal.Read.val_main_cst
  rfl

theorem weights_eq (x : FVec Ideal Cert.KernelIdeal.S8192 .f32) :
    Cert.KernelIdeal.Risk.weights x = Cert.ReferenceIdeal.Read.val_main_v12 (F := Ideal) x := by
  unfold Cert.KernelIdeal.Risk.weights Cert.ReferenceIdeal.Read.val_main_v12 Cert.ReferenceIdeal.Read.val_main_v11
    Cert.ReferenceIdeal.Read.val_main_v10
  rw [top_eq]

/-- Both programs end at the loss chain of the same risk-set sums of the same times and weights. -/
theorem algebraic : Cert.algebraic_KernelIdeal_ReferenceIdeal := by
  intro m ρ m' ρ' _ hagree
  refine ⟨_, Cert.KernelIdeal.Risk.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v27_eq _ _)).trans ?_
  rw [Cert.ReferenceIdeal.Risk.loss_eq, Cert.ReferenceIdeal.Risk.rss_eq, (hagree c).1, (hagree c).2,
    times_eq, events_eq, top_eq, weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
